-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x32 : Shape := ⟨4, ![4, 256, 256, 32]⟩
abbrev S32x8 : Shape := ⟨2, ![32, 8]⟩
abbrev S_ : Shape := ⟨0, ![]⟩

class Facts : Prop where
  bcast_S_S4x256x256x32 : S_.BroadcastsInDim S4x256x256x32 (![] : Fin 0 → Fin S4x256x256x32.rank)
  reducesTo_S4x256x256x32_S_d0_1_2_3 : S4x256x256x32.ReducesTo [0, 1, 2, 3] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S4x256x256x32 .f32) (main_arg1 : FVec F S32x8 .f32) : IVec S_ 1 :=
  let main_v0 : FVec F S4x256x256x32 .f32 := Host.absf main_arg0
  let main_cst : FVec F S_ .f32 := constant S_ .f32 0x7F800000#32
  let main_v1 : FVec F S4x256x256x32 .f32 := broadcastInDim S4x256x256x32 ![] bcast_S_S4x256x256x32 main_cst
  let main_v2 : IVec S4x256x256x32 1 := cmpf .olt main_v0 main_v1
  let main_c : IVec S_ 1 := constantI S_ 1 1#1
  let main_v3 : IVec S_ 1 := (fun x v => Host.reduce IntOp.andi x v reducesTo_S4x256x256x32_S_d0_1_2_3 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  main_v8
-- ==== Kernel.lean ====
abbrev S4x256x256x32 : Shape := ⟨4, ![4, 256, 256, 32]⟩
abbrev S32x8 : Shape := ⟨2, ![32, 8]⟩
abbrev S_ : Shape := ⟨0, ![]⟩
abbrev S32 : Shape := ⟨1, ![32]⟩
abbrev S32x1 : Shape := ⟨2, ![32, 1]⟩
abbrev S32x32 : Shape := ⟨2, ![32, 32]⟩
abbrev S32x32x1 : Shape := ⟨3, ![32, 32, 1]⟩
abbrev S32x1x8 : Shape := ⟨3, ![32, 1, 8]⟩
abbrev S32x32x8 : Shape := ⟨3, ![32, 32, 8]⟩
abbrev S32x256 : Shape := ⟨2, ![32, 256]⟩
abbrev S262144x32 : Shape := ⟨2, ![262144, 32]⟩
abbrev S262144x256 : Shape := ⟨2, ![262144, 256]⟩
abbrev S8192x32 : Shape := ⟨2, ![8192, 32]⟩
abbrev S8192x256 : Shape := ⟨2, ![8192, 256]⟩
abbrev S4x256x256x32x8 : Shape := ⟨5, ![4, 256, 256, 32, 8]⟩

abbrev nBuf : Space → Nat
  | .hbm => 24
  | .vmem => 5
  | .smem => 0
  | _ => 0

abbrev bufTy : (tb : Table) → Fin (tcTables nBuf tb) → BufTy
  | .hbm, ⟨0, _⟩ => ⟨S4x256x256x32, .f32⟩
  | .hbm, ⟨1, _⟩ => ⟨S32x8, .f32⟩
  | .hbm, ⟨2, _⟩ => ⟨S32x8, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S32x8, .f32⟩
  | .hbm, ⟨7, _⟩ => ⟨S32x8, .f32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i1⟩
  | .hbm, ⟨14, _⟩ => ⟨S32x32, .f32⟩
  | .hbm, ⟨15, _⟩ => ⟨S32x32x1, .f32⟩
  | .hbm, ⟨16, _⟩ => ⟨S32x1x8, .f32⟩
  | .hbm, ⟨17, _⟩ => ⟨S32x32x8, .f32⟩
  | .hbm, ⟨18, _⟩ => ⟨S32x32x8, .f32⟩
  | .hbm, ⟨19, _⟩ => ⟨S32x32x8, .f32⟩
  | .hbm, ⟨20, _⟩ => ⟨S32x256, .f32⟩
  | .hbm, ⟨21, _⟩ => ⟨S262144x32, .f32⟩
  | .hbm, ⟨22, _⟩ => ⟨S262144x256, .f32⟩
  | .hbm, ⟨23, _⟩ => ⟨S4x256x256x32x8, .f32⟩
  | .local _ .vmem, ⟨0, _⟩ => ⟨S8192x32, .f32⟩
  | .local _ .vmem, ⟨1, _⟩ => ⟨S8192x32, .f32⟩
  | .local _ .vmem, ⟨2, _⟩ => ⟨S32x256, .f32⟩
  | .local _ .vmem, ⟨3, _⟩ => ⟨S8192x256, .f32⟩
  | .local _ .vmem, ⟨4, _⟩ => ⟨S8192x256, .f32⟩
  | _, _ => ⟨S4x256x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S32x8_S32_d1 : S32x8.ReducesTo [1] S32
  h_S_ : 0 < S_.numel
  bcast_S32_S32x1_0 : S32.BroadcastsInDim S32x1 (![0] : Fin 1 → Fin S32x1.rank)
  bcast_S32x1_S32x8_0_1 : S32x1.BroadcastsInDim S32x8 (![0, 1] : Fin 2 → Fin S32x8.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x8_S32x1x8_0_2 : S32x8.BroadcastsInDim S32x1x8 (![0, 2] : Fin 2 → Fin S32x1x8.rank)
  bcast_S32x32x1_S32x32x8_0_1_2 : S32x32x1.BroadcastsInDim S32x32x8 (![0, 1, 2] : Fin 3 → Fin S32x32x8.rank)
  bcast_S32x1x8_S32x32x8_0_1_2 : S32x1x8.BroadcastsInDim S32x32x8 (![0, 1, 2] : Fin 3 → Fin S32x32x8.rank)
  shapeCasts_S32x32x8_S32x256 : S32x32x8.ShapeCasts S32x256
  shapeCasts_S4x256x256x32_S262144x32 : S4x256x256x32.ShapeCasts S262144x32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S8192x256_S8192x256_0_0 : ∀ a, (![0, 0] : Fin 2 → Nat) a + S8192x256.size a ≤ S8192x256.size a
  h_S8192x256 : 0 < S8192x256.numel
  shapeCasts_S262144x256_S4x256x256x32x8 : S262144x256.ShapeCasts S4x256x256x32x8
  dot_S8192x32_S32x256_S8192x256_1_0_0_1_n_n_wf : DotDims.WF S8192x32 S32x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S262144x32.size a
  hwx0_0 : ∀ i : grid0.Coords, EltTy.bits .f32 = 32 ∨ (Rect.block (s := S262144x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S262144x256.size a
  hwx0_2 : ∀ i : grid0.Coords, EltTy.bits .f32 = 32 ∨ (Rect.block (s := S262144x256) S8192x256.size (cc0_transform_2 i) (hinb0_2 i)).WholeWords (EltTy.packing .f32)

variable [Facts₀]

def dot_S8192x32_S32x256_S8192x256_1_0_0_1_n_n : DotDims S8192x32 S32x256 S8192x256 where
  lhsContracting := [1]
  rhsContracting := [0]
  lhsNonContracting := [0]
  rhsNonContracting := [1]
  lhsBatch := []
  rhsBatch := []
  wf := dot_S8192x32_S32x256_S8192x256_1_0_0_1_n_n_wf

abbrev win0_0 : Pipeline.Window sig grid0 :=
  Pipeline.Window.ofSpec (Memref.whole main_v17) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x256x32 : Shape := ⟨4, ![4, 256, 256, 32]⟩
abbrev S32x8 : Shape := ⟨2, ![32, 8]⟩
abbrev S_ : Shape := ⟨0, ![]⟩
abbrev S32 : Shape := ⟨1, ![32]⟩
abbrev S32x1 : Shape := ⟨2, ![32, 1]⟩
abbrev S4x256x256x32x1 : Shape := ⟨5, ![4, 256, 256, 32, 1]⟩
abbrev S1x1x1x32x8 : Shape := ⟨5, ![1, 1, 1, 32, 8]⟩
abbrev S4x256x256x32x8 : Shape := ⟨5, ![4, 256, 256, 32, 8]⟩

abbrev nBuf : Space → Nat
  | .hbm => 13
  | .vmem => 0
  | .smem => 0
  | _ => 0

abbrev bufTy : (tb : Table) → Fin (tcTables nBuf tb) → BufTy
  | .hbm, ⟨0, _⟩ => ⟨S4x256x256x32, .f32⟩
  | .hbm, ⟨1, _⟩ => ⟨S32x8, .f32⟩
  | .hbm, ⟨2, _⟩ => ⟨S32x8, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S32x8, .f32⟩
  | .hbm, ⟨7, _⟩ => ⟨S32x8, .f32⟩
  | .hbm, ⟨8, _⟩ => ⟨S4x256x256x32x1, .f32⟩
  | .hbm, ⟨9, _⟩ => ⟨S1x1x1x32x8, .f32⟩
  | .hbm, ⟨10, _⟩ => ⟨S4x256x256x32x8, .f32⟩
  | .hbm, ⟨11, _⟩ => ⟨S4x256x256x32x8, .f32⟩
  | .hbm, ⟨12, _⟩ => ⟨S4x256x256x32x8, .f32⟩
  | _, _ => ⟨S4x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S32x8_S32_d1 : S32x8.ReducesTo [1] S32
  h_S_ : 0 < S_.numel
  bcast_S32_S32x1_0 : S32.BroadcastsInDim S32x1 (![0] : Fin 1 → Fin S32x1.rank)
  bcast_S32x1_S32x8_0_1 : S32x1.BroadcastsInDim S32x8 (![0, 1] : Fin 2 → Fin S32x8.rank)
  bcast_S4x256x256x32_S4x256x256x32x1_0_1_2_3 : S4x256x256x32.BroadcastsInDim S4x256x256x32x1 (![0, 1, 2, 3] : Fin 4 → Fin S4x256x256x32x1.rank)
  bcast_S32x8_S1x1x1x32x8_3_4 : S32x8.BroadcastsInDim S1x1x1x32x8 (![3, 4] : Fin 2 → Fin S1x1x1x32x8.rank)
  bcast_S4x256x256x32x1_S4x256x256x32x8_0_1_2_3_4 : S4x256x256x32x1.BroadcastsInDim S4x256x256x32x8 (![0, 1, 2, 3, 4] : Fin 5 → Fin S4x256x256x32x8.rank)
  bcast_S1x1x1x32x8_S4x256x256x32x8_0_1_2_3_4 : S1x1x1x32x8.BroadcastsInDim S4x256x256x32x8 (![0, 1, 2, 3, 4] : Fin 5 → Fin S4x256x256x32x8.rank)

variable [Facts₀]

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.Block.lean ====
/-
  What the kernel body leaves in its output block.

  The body loads its block of rows x (8192 × 32) and the whole matrix W (32 × 256), and stores their product
  taken into a zero accumulator; so entry (p, q) of the stored block is row p of x times W at column q,
  the sum over k of x(p, k) · W(k, q).
-/
import proofs.«110005_j3040836845752_2_alg».proof.Proof.Gen.KernelIdeal.Frame
import proofs.«110005_j3040836845752_2_alg».proof.Proof.LibRowDot
import Idealize.ShloMosaic.Lib.Pipeline.Value

noncomputable section

namespace Cert.KernelIdeal.Hand

open Cert.KernelIdeal Cert.KernelIdeal.Gen Idealize.ShloMosaic Idealize.ShloMosaic.ValueIdx

/-- The zero offsets of a whole-buffer access. -/
theorem hz : (![0, 0] : Fin 2 → Nat) = fun _ => 0 := funext fun a => by fin_cases a <;> rfl

/-- Entry (p, q) of the block the body stores is row p of the loaded rows times the loaded matrix, at column q. -/
theorem block_apply (x0 : Vec Ideal S8192x32 .f32) (x1 : Vec Ideal S32x256 .f32) (j : S8192x256.Idx) :
    out0_2 (F := Ideal) x0 x1 j = Cert.RowDot.rowDot (Cert.RowDot.rowOf x0 (j 0)) x1 (j 1) := by
  unfold out0_2
  rw [View.canon_unit_zero hz]
  simp only [View.ld_unit_zero (S := S8192x32) hz, View.ld_unit_zero (S := S32x256) hz]
  unfold k0_pay1
  simp only [shapeCast_self]
  exact Cert.RowDot.matmul_plain_zero_apply (M := 8192) (K := 32) (N := 256) (some .fp32) x0 x1 j

end Cert.KernelIdeal.Hand

end
-- ==== Proof.Outer.lean ====
/-
  The outer product of a batch of feature vectors with a per-feature table, as one function of the two arrays.

  For x of shape [4, 256, 256, 32] and u of shape [32, 8] the result at (b, h, w, d, e) is x(b, h, w, d) · u(d, e).
  The same numbers arise as a matrix product: flatten x to rows n = (b, h, w) and spread u over a 32 × 256 matrix
  W(k, 8·d + e) = δ(k, d) · u(k, e) that is zero off the block diagonal; then (x · W)(n, 8·d + e) =
  Σ_k x(n, k) · δ(k, d) · u(k, e), and every term with k ≠ d is x(n, k) · (0 · u(k, e)) = 0 on the extended reals
  (0 · y = 0 and y · 0 = 0 for every y, the infinities included), so the sum is its one diagonal term
  x(n, d) · (1 · u(d, e)) = x(n, d) · u(d, e).  No finiteness is used.
-/
import Idealize.ShloMosaic.Lib.ValueIdx
import Idealize.ShloMosaic.PureOps.Ideal.Laws

noncomputable section

open scoped BigOperators

namespace Cert.Outer

open Idealize.ShloMosaic Idealize.ShloMosaic.ValueIdx

/-- Kronecker's δ as an extended real: 1 on the diagonal, 0 off it. -/
def delta {K : Nat} (k d : Fin K) : EReal := if k = d then 1 else 0

theorem delta_self {K : Nat} (d : Fin K) : delta d d = 1 := if_pos rfl

theorem delta_ne {K : Nat} {k d : Fin K} (h : k ≠ d) : delta k d = 0 := if_neg h

/-- A sum against a column of the block-diagonal matrix keeps its diagonal term only: every other term is
    a(k) · (0 · b(k)) = 0, whatever extended reals a(k) and b(k) are. -/
theorem diag_sum {K : Nat} (a b : Fin K → EReal) (d : Fin K) :
    ∑ k : Fin K, a k * (delta k d * b k) = a d * b d := by
  rw [Finset.sum_eq_single d]
  · rw [delta_self, one_mul]
  · intro k _ hk
    rw [delta_ne hk, zero_mul, mul_zero]
  · intro h
    exact absurd (Finset.mem_univ d) h

/-- The result, index by index: entry (b, h, w, d, e) is x(b, h, w, d) · u(d, e). -/
def outer (x : (⟨4, ![4, 256, 256, 32]⟩ : Shape).Idx → EReal) (u : (⟨2, ![32, 8]⟩ : Shape).Idx → EReal) :
    (⟨5, ![4, 256, 256, 32, 8]⟩ : Shape).Idx → EReal :=
  fun i => x (ix4 (i 0) (i 1) (i 2) (i 3)) * u (ix2 (i 3) (i 4))

end Cert.Outer

end
-- ==== Proof.Stages.lean ====
/-
  The two arrays the region is launched on, as the host lines before it leave them.

  The left operand is the input with its three leading axes merged: row n = (b·256 + h)·256 + w, column k, holds
  x(b, h, w, k).  The right operand spreads the normalised table u (32 × 8) over a 32 × 256 matrix: the product of
  the identity pattern δ(k, d) — an integer comparison of a row counter with a column counter, converted to 1 or 0 —
  with u(k, e), both broadcast to [32, 32, 8], the last two axes then merged; so column 8·d + e of row k holds
  δ(k, d) · u(k, e).
-/
import proofs.«110005_j3040836845752_2_alg».proof.Proof.Gen.KernelIdeal.Frame
import proofs.«110005_j3040836845752_2_alg».proof.Proof.Outer
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo

/-- The normalised table: each square of beta over the sum of its row's squares. One term, never opened: the
    reference computes the same one. -/
def table (β : Vec Ideal S32x8 .f32) : Vec Ideal S32x8 .f32 :=
  Host.divf (mulf β β) (broadcastInDim S32x8 ![0, 1] bcast_S32x1_S32x8_0_1 (broadcastInDim S32x1 ![0] bcast_S32_S32x1_0
    (Host.reduceAdd (mulf β β) (constant (F := Ideal) S_ .f32 0x00000000#32) reducesTo_S32x8_S32_d1 h_S_)))

/-- The identity pattern: 1 where the row counter equals the column counter, else 0. -/
def eye : Vec Ideal S32x32 .f32 :=
  uitofp (F := Ideal) .f32 (cmpi .eq (addi (iotaInDim S32x32 32 0) (broadcastInDim S32x32 ![] bcast_S_S32x32 (constantI S_ 32 0#32)))
    (iotaInDim S32x32 32 1))

/-- A table spread over the block-diagonal 32 × 256 matrix. -/
def spread (u : Vec Ideal S32x8 .f32) : Vec Ideal S32x256 .f32 :=
  shapeCast S32x256 (mulf (F := Ideal) (φ := .f32)
    (broadcastInDim S32x32x8 ![0, 1, 2] bcast_S32x32x1_S32x32x8_0_1_2 (broadcastInDim S32x32x1 ![0, 1] bcast_S32x32_S32x32x1_0_1 eye))
    (broadcastInDim S32x32x8 ![0, 1, 2] bcast_S32x1x8_S32x32x8_0_1_2 (broadcastInDim S32x1x8 ![0, 2] bcast_S32x8_S32x1x8_0_2 u)))
    shapeCasts_S32x32x8_S32x256

variable (m : (ℓ : Loc nD τ sig) → Buf (Elt Ideal) ℓ)

/-- The region's left operand is the input, reshaped. -/
theorem left_eq (c : Dev nD) :
    (V m c main_v17 : S262144x32.Idx → EReal)
      = shapeCast S262144x32 (m ((c : Thread nD τ).loc main_arg0) : S4x256x256x32.Idx → EReal) shapeCasts_S4x256x256x32_S262144x32 := by
  show StableHlo.after hostOps0 (fun b => m (c, b)) (Proc.devRef .tc main_v17) = _
  after_results
  rfl

/-- The region's right operand is the normalised table of beta, spread. -/
theorem right_eq (c : Dev nD) :
    (V m c main_v16 : S32x256.Idx → EReal) = spread (table (m ((c : Thread nD τ).loc main_arg1))) := by
  show StableHlo.after hostOps0 (fun b => m (c, b)) (Proc.devRef .tc main_v16) = _
  after_results
  rfl

end Cert.KernelIdeal.Hand

end
-- ==== Proof.Product.lean ====
/-
  The region's output array after the run: the product of its two operands.

  The grid has 32 points; point t stages rows 8192·t … 8192·t + 8191 of the left operand, the whole right operand,
  and writes back rows 8192·t … 8192·t + 8191 of the output.  Row p of the block the body stores is row p of the
  staged rows times the matrix, which is row 8192·t + p of the whole product; the 32 row blocks tile the output,
  so the array ends holding the whole product.
-/
import proofs.«110005_j3040836845752_2_alg».proof.Proof.Block
import proofs.«110005_j3040836845752_2_alg».proof.Proof.Stages

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

/-- The product of an M × 32 array of rows with a 32 × 256 matrix, entry by entry. -/
def product (X : S262144x32.Idx → EReal) (W : S32x256.Idx → EReal) : S262144x256.Idx → EReal :=
  fun j => Cert.RowDot.rowDot (Cert.RowDot.rowOf X (j 0)) W (j 1)

/-- A block of rows of the product: if the staged rows x0 are rows r … r + 8191 of X and the staged matrix is W,
    the stored block at (p, q) is the product at (r + p, q). -/
theorem block_of_product (X : S262144x32.Idx → EReal) (W : S32x256.Idx → EReal)
    (x0 : Vec Ideal S8192x32 .f32) (x1 : Vec Ideal S32x256 .f32) (r : Nat) (y : S8192x256.Idx) (i : S262144x256.Idx)
    (hi0 : (i 0).val = r + (y 0).val) (hi1 : (i 1).val = (y 1).val)
    (hx0 : ∀ (p : S8192x32.Idx) (q : S262144x32.Idx), (q 0).val = r + (p 0).val → (q 1).val = (p 1).val → x0 p = X q)
    (hx1 : ∀ (p : S32x256.Idx), x1 p = W p) :
    out0_2 (F := Ideal) x0 x1 y = product X W i := by
  rw [block_apply]
  unfold product Cert.RowDot.rowDot Cert.RowDot.rowOf
  refine Finset.sum_congr rfl fun k _ => ?_
  rw [hx0 (ix2 (y 0) k) (ix2 (i 0) k) hi0 rfl, hx1]
  have e : (y 1 : Fin 256) = i 1 := Fin.ext hi1.symm
  rw [e]

variable (m : (ℓ : Loc nD τ sig) → Buf (Elt Ideal) ℓ)

/-- The printed index maps over the grid: the row-block index of the left operand and of the output is the point,
    every other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two operands as the region finds them. -/
theorem flushed_eq (c : Dev nD) (t : Fin cfg0.N) :
    (dats m 0 c).flushed 2 t
      = ((cfg0.win 2).blk t).view.read (Elt Ideal) (product (V m c main_v17) (V m c main_v16)) := by
  show (cfg0.win 2).cut (grid0.coords t) ((dats m 0 c).after 2 t) = _
  rw [after0_2]
  obtain ⟨e0, e1, e2, e3, e4, e5⟩ := index_facts t
  funext y
  show out0_2 (F := Ideal) (iblk m c 0 t) (iblk m c 1 t) y
    = product (V m c main_v17) (V m c main_v16) (((cfg0.win 2).blk t).view.emb y)
  refine block_of_product (V m c main_v17) (V m c main_v16) (iblk m c 0 t) (iblk m c 1 t) (t.val * 8192) y
    (((cfg0.win 2).blk t).view.emb y) ?_ ?_ ?_ ?_
  · show win0_2.index t (0 : Fin 2) * 8192 + 1 * (y 0).val = t.val * 8192 + (y 0).val
    rw [e4]; omega
  · show win0_2.index t (1 : Fin 2) * 256 + 1 * (y 1).val = (y 1).val
    rw [e5]; omega
  · intro p q hq0 hq1
    show V m c main_v17 (((cfg0.win 0).blk t).view.emb p) = V m c main_v17 q
    refine congrArg (V m c main_v17) (funext fun a => Fin.ext ?_)
    match a with
    | ⟨0, _⟩ => show win0_0.index t (0 : Fin 2) * 8192 + 1 * (p 0).val = (q 0).val; rw [e0, hq0]; omega
    | ⟨1, _⟩ => show win0_0.index t (1 : Fin 2) * 32 + 1 * (p 1).val = (q 1).val; rw [e1, hq1]; omega
  · intro p
    show V m c main_v16 (((cfg0.win 1).blk t).view.emb p) = V m c main_v16 p
    refine congrArg (V m c main_v16) (funext fun a => Fin.ext ?_)
    match a with
    | ⟨0, _⟩ => show win0_1.index t (0 : Fin 2) * 32 + 1 * (p 0).val = (p 0).val; rw [e2]; omega
    | ⟨1, _⟩ => show win0_1.index t (1 : Fin 2) * 256 + 1 * (p 1).val = (p 1).val; rw [e3]; omega

/-- An index of the output array is in point t's block iff each coordinate is in the block's range on its axis. -/
theorem mem_block (t : Fin cfg0.N) (i : S262144x256.Idx) :
    i ∈ ((cfg0.win 2).blk t).view.set
      ↔ ∀ a : Fin 2, win0_2.index t a * S8192x256.size a ≤ (i a).val ∧ (i a).val < win0_2.index t a * S8192x256.size a + S8192x256.size a := by
  show i ∈ ((View.whole main_v18).slice (win0_2.rect t)).set ↔ _
  rw [View.set_slice_whole, Rect.mem_set_unit]
  exact Iff.rfl

/-- The 32 row blocks tile the output: row r is in the block of point r / 8192. -/
theorem cover (i : S262144x256.Idx) :
    ∃ t : Fin cfg0.N, (cfg0.win 2).flush t = true ∧ i ∈ ((cfg0.win 2).blk t).view.set := by
  have hi0 : (i 0).val < 262144 := (i 0).isLt
  have hi1 : (i 1).val < 256 := (i 1).isLt
  have hN : cfg0.N = 32 := N_0
  refine ⟨⟨(i 0).val / 8192, by rw [hN]; omega⟩, flush0_2 _, ?_⟩
  rw [mem_block]
  obtain ⟨-, -, -, -, e4, e5⟩ := index_facts ⟨(i 0).val / 8192, by rw [hN]; omega⟩
  intro a
  match a with
  | ⟨0, _⟩ =>
    show win0_2.index _ (0 : Fin 2) * 8192 ≤ (i 0).val ∧ (i 0).val < win0_2.index _ (0 : Fin 2) * 8192 + 8192
    rw [e4]; show (i 0).val / 8192 * 8192 ≤ (i 0).val ∧ (i 0).val < (i 0).val / 8192 * 8192 + 8192; omega
  | ⟨1, _⟩ =>
    show win0_2.index _ (1 : Fin 2) * 256 ≤ (i 1).val ∧ (i 1).val < win0_2.index _ (1 : Fin 2) * 256 + 256
    rw [e5]; omega

/-- The output array after the run is the product of the two operands as the region finds them. -/
theorem final_product (c : Dev nD) :
    (dats m 0 c).arrAt 2 cfg0.N = product (V m c main_v17) (V m c main_v16) :=
  (dats m 0 c).arrAt_eq_of_cover 2 (product (V m c main_v17) (V m c main_v16)) (fun t _ => flushed_eq m c t) cover

end Cert.KernelIdeal.Hand

end
-- ==== Proof.Operands.lean ====
/-
  The region's two operands read at an entry.

  Left operand: row (b·256 + h)·256 + w, column k, is x(b, h, w, k) — merging the three leading axes keeps
  the row-major position.  Right operand: row k, column 8·d + e, is δ(k, d) · u(k, e) — the comparison of the two
  counters is 1 exactly on the diagonal, and splitting column 8·d + e back into (d, e) keeps the row-major position.
-/
import proofs.«110005_j3040836845752_2_alg».proof.Proof.Stages

noncomputable section

namespace Cert.KernelIdeal.Hand

open Cert.KernelIdeal Cert.KernelIdeal.Gen Idealize.ShloMosaic Idealize.ShloMosaic.TcCoe Idealize.ShloMosaic.ValueIdx

/-- The input with its leading axes merged, at row (b·256 + h)·256 + w and column k, is x(b, h, w, k). -/
theorem merged_apply (x : S4x256x256x32.Idx → EReal) (b : Fin 4) (h w : Fin 256) (k : Fin 32) (j : S262144x32.Idx)
    (h0 : (j 0).val = (b.val * 256 + h.val) * 256 + w.val) (h1 : (j 1).val = k.val) :
    shapeCast S262144x32 x shapeCasts_S4x256x256x32_S262144x32 j = x (ix4 b h w k) := by
  refine shapeCast_apply x _ j (ix4 b h w k) ?_
  rw [Shape.rowMajor_val_four, Shape.rowMajor_val_two]
  show ((b.val * 256 + h.val) * 256 + w.val) * 32 + k.val = (j 0).val * 32 + (j 1).val
  omega

/-- Two counters below 32, as 32-bit words, compare equal exactly when they are equal. -/
theorem counters_eq (k d : Fin 32) :
    IntOp.cmpi .eq (IntOp.addi (BitVec.ofNat 32 k.val) 0#32) (BitVec.ofNat 32 d.val) = if k = d then 1#1 else 0#1 := by
  revert k d
  decide +kernel

/-- The identity pattern at (k, d) is δ(k, d). -/
theorem eye_apply (k d : Fin 32) : eye (ix2 k d) = Cert.Outer.delta k d := by
  show FloatOps.uitofp (F := Ideal) .f32 (IntOp.cmpi .eq (IntOp.addi (BitVec.ofNat 32 k.val) 0#32) (BitVec.ofNat 32 d.val)) = _
  rw [counters_eq]
  unfold Cert.Outer.delta
  by_cases hkd : k = d
  · rw [if_pos hkd, if_pos hkd]
    show (((1#1 : BitVec 1).toNat : ℝ) : EReal) = 1
    norm_num
  · rw [if_neg hkd, if_neg hkd]
    show (((0#1 : BitVec 1).toNat : ℝ) : EReal) = 0
    norm_num

/-- The spread table at row k and column 8·d + e is δ(k, d) · u(k, e). -/
theorem spread_apply (u : Vec Ideal S32x8 .f32) (k d : Fin 32) (e : Fin 8) (j : S32x256.Idx)
    (h0 : (j 0).val = k.val) (h1 : (j 1).val = d.val * 8 + e.val) :
    spread u j = Cert.Outer.delta k d * u (ix2 k e) := by
  unfold spread
  refine (shapeCast_apply _ _ j (ix3 k d e) ?_).trans ?_
  · rw [Shape.rowMajor_val_three, Shape.rowMajor_val_two]
    show (k.val * 32 + d.val) * 8 + e.val = (j 0).val * 256 + (j 1).val
    omega
  · show (broadcastInDim S32x32x8 ![0, 1, 2] bcast_S32x32x1_S32x32x8_0_1_2 (broadcastInDim S32x32x1 ![0, 1] bcast_S32x32_S32x32x1_0_1 eye)) (ix3 k d e)
        * (broadcastInDim S32x32x8 ![0, 1, 2] bcast_S32x1x8_S32x32x8_0_1_2 (broadcastInDim S32x1x8 ![0, 2] bcast_S32x8_S32x1x8_0_2 u)) (ix3 k d e) = _
    rw [broadcastInDim_apply _ bcast_S32x32x1_S32x32x8_0_1_2 _ (ix3 k d e) (ix3 k d (0 : Fin 1)) (fun a => match a with
        | ⟨0, _⟩ => by show k.val = if (32 : Nat) = 1 then 0 else k.val; rw [if_neg (by decide)]
        | ⟨1, _⟩ => by show d.val = if (32 : Nat) = 1 then 0 else d.val; rw [if_neg (by decide)]
        | ⟨2, _⟩ => by show 0 = if (1 : Nat) = 1 then 0 else e.val; rw [if_pos rfl]),
      broadcastInDim_apply _ bcast_S32x32_S32x32x1_0_1 eye (ix3 k d (0 : Fin 1)) (ix2 k d) (fun a => match a with
        | ⟨0, _⟩ => by show k.val = if (32 : Nat) = 1 then 0 else k.val; rw [if_neg (by decide)]
        | ⟨1, _⟩ => by show d.val = if (32 : Nat) = 1 then 0 else d.val; rw [if_neg (by decide)]),
      broadcastInDim_apply _ bcast_S32x1x8_S32x32x8_0_1_2 _ (ix3 k d e) (ix3 k (0 : Fin 1) e) (fun a => match a with
        | ⟨0, _⟩ => by show k.val = if (32 : Nat) = 1 then 0 else k.val; rw [if_neg (by decide)]
        | ⟨1, _⟩ => by show 0 = if (1 : Nat) = 1 then 0 else d.val; rw [if_pos rfl]
        | ⟨2, _⟩ => by show e.val = if (8 : Nat) = 1 then 0 else e.val; rw [if_neg (by decide)]),
      broadcastInDim_apply _ bcast_S32x8_S32x1x8_0_2 u (ix3 k (0 : Fin 1) e) (ix2 k e) (fun a => match a with
        | ⟨0, _⟩ => by show k.val = if (32 : Nat) = 1 then 0 else k.val; rw [if_neg (by decide)]
        | ⟨1, _⟩ => by show e.val = if (8 : Nat) = 1 then 0 else e.val; rw [if_neg (by decide)]),
      eye_apply]

end Cert.KernelIdeal.Hand

end
-- ==== Proof.Result.lean ====
/-
  The kernel program's result, as one function of its arguments.

  After the region the one remaining host line splits the output's rows back into (b, h, w) and its columns into
  (d, e), keeping row-major positions: the result at (b, h, w, d, e) is the product at row (b·256 + h)·256 + w and
  column 8·d + e, the sum over k of x(b, h, w, k) · δ(k, d) · u(k, e), whose only non-zero term is k = d:
  x(b, h, w, d) · u(d, e).
-/
import proofs.«110005_j3040836845752_2_alg».proof.Proof.Product
import proofs.«110005_j3040836845752_2_alg».proof.Proof.Operands

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ)

/-- @main's result buffer after the last host line is the region's output array, reshaped. -/
theorem tail_eq (c : Dev nD) :
    (Pipeline.afterTail₀ cfgs (dats m) 0 (V0 m) [hostOps1] c main_v19 : S4x256x256x32x8.Idx → EReal)
      = shapeCast S4x256x256x32x8 (product (V m c main_v17) (V m c main_v16)) shapeCasts_S262144x256_S4x256x256x32x8 := by
  have e : Pipeline.withArrays (cfgs 0).spec c (V0 m c) (fun w => (dats m 0 c).arrAt w (cfgs 0).N) (Proc.devRef .tc main_v18)
      = product (V m c main_v17) (V m c main_v16) :=
    (Pipeline.withArrays_arr spec0 launch0.win.arr_inj c _ _ 2).trans (final_product m c)
  unfold Pipeline.afterTail₀
  show StableHlo.after hostOps1 _ (Proc.devRef .tc main_v19) = _
  after_results
  rw [e]
  rfl

/-- The reshaped product of the input's rows with the spread table is the outer product with the table. -/
theorem reshaped_product (x : S4x256x256x32.Idx → EReal) (u : Vec Ideal S32x8 .f32) :
    shapeCast S4x256x256x32x8
        (product (shapeCast S262144x32 x shapeCasts_S4x256x256x32_S262144x32) (spread u))
        shapeCasts_S262144x256_S4x256x256x32x8
      = Cert.Outer.outer x u := by
  funext i
  have h0 : (i 0).val < 4 := (i 0).isLt
  have h1 : (i 1).val < 256 := (i 1).isLt
  have h2 : (i 2).val < 256 := (i 2).isLt
  have h3 : (i 3).val < 32 := (i 3).isLt
  have h4 : (i 4).val < 8 := (i 4).isLt
  obtain ⟨n, hn⟩ : ∃ n : Fin 262144, n.val = ((i 0).val * 256 + (i 1).val) * 256 + (i 2).val := ⟨⟨_, by omega⟩, rfl⟩
  obtain ⟨q, hq⟩ : ∃ q : Fin 256, q.val = (i 3).val * 8 + (i 4).val := ⟨⟨_, by omega⟩, rfl⟩
  refine (shapeCast_apply _ _ i (ix2 n q) ?_).trans ?_
  · rw [Shape.rowMajor_val_two, Shape.rowMajor_val_five]
    show n.val * 256 + q.val = ((((i 0).val * 256 + (i 1).val) * 256 + (i 2).val) * 32 + (i 3).val) * 8 + (i 4).val
    omega
  · show ∑ k : Fin 32, shapeCast S262144x32 x shapeCasts_S4x256x256x32_S262144x32 (ix2 n k) * spread u (ix2 k q) = _
    have term : ∀ k : Fin 32, shapeCast S262144x32 x shapeCasts_S4x256x256x32_S262144x32 (ix2 n k) * spread u (ix2 k q)
        = x (ix4 (i 0) (i 1) (i 2) k) * (Cert.Outer.delta k (i 3) * u (ix2 k (i 4))) := fun k => by
      rw [merged_apply x (i 0) (i 1) (i 2) k (ix2 n k) hn rfl, spread_apply u k (i 3) (i 4) (ix2 k q) rfl hq]
    rw [Finset.sum_congr rfl fun k _ => term k]
    exact Cert.Outer.diag_sum (fun k => x (ix4 (i 0) (i 1) (i 2) k)) (fun k => u (ix2 k (i 4))) (i 3)

/-- The kernel program's result is the outer product of the input with the normalised table of beta. -/
theorem result_eq (c : Dev nD) :
    (Pipeline.afterTail₀ cfgs (dats m) 0 (V0 m) [hostOps1] c main_v19 : S4x256x256x32x8.Idx → EReal)
      = Cert.Outer.outer (m ((c : Thread nD τ).loc main_arg0)) (table (m ((c : Thread nD τ).loc main_arg1))) := by
  rw [tail_eq, left_eq, right_eq]
  exact reshaped_product _ _

end Cert.KernelIdeal.Hand

end
-- ==== Proof.KernelRun.lean ====
/-
  The kernel program's run, read: every execution ends with the result buffer holding the outer product of the
  input with the normalised table of beta, and the two arguments as they were.
-/
import proofs.«110005_j3040836845752_2_alg».proof.Proof.Result

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Every weakly fair execution terminates; the result is x(b, h, w, d) · u(d, e) entry by entry, u the normalised
    table of the second argument; the arguments are unchanged. -/
theorem kernel_run : θ_run (defs (F := Ideal)) (onTc (τ := τ) (main (F := Ideal))) ⟨m, fun _ => 0, ρ⟩ fun r => ∀ c : Dev nD,
      r.2.mem ((c.tc : Thread nD τ).loc main_v19)
        = Cert.Outer.outer (m ((c.tc : Thread nD τ).loc main_arg0)) (table (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v19 (Pipeline.mem_restRefs_of main_v19 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.RefOuter.lean ====
/-
  The reference is the outer product.

  The host program broadcasts the input along a new last axis and the per-feature table u along the three leading
  axes, and multiplies: at (b, h, w, d, e) the first broadcast reads x(b, h, w, d), the second u(d, e).  Here u is the
  program's own normalised table (the squares of beta divided by their row sums), kept as one unopened term.
-/
import proofs.«110005_j3040836845752_2_alg».proof.Proof.Gen.ReferenceIdeal.Read
import proofs.«110005_j3040836845752_2_alg».proof.Proof.Outer

noncomputable section

namespace Cert.ReferenceIdeal.RefValue

open Cert.ReferenceIdeal Cert.ReferenceIdeal.Read Idealize.ShloMosaic Idealize.ShloMosaic.ValueIdx

/-- The reference's result as a function of its arguments is `outer` of the input and the normalised table. -/
theorem ref_is_outer (x0 : (⟨S4x256x256x32, .f32⟩ : BufTy).Contents (Elt Ideal)) (x1 : (⟨S32x8, .f32⟩ : BufTy).Contents (Elt Ideal)) :
    val_main_v9 (F := Ideal) x0 x1 = Cert.Outer.outer x0 (val_main_v4 (F := Ideal) x1) := by
  funext i
  have e0 : idx_main_v5 (idx_main_v7 i) = ix4 (i 0) (i 1) (i 2) (i 3) :=
    funext fun a => Fin.ext (by match a with | ⟨0, _⟩ => rfl | ⟨1, _⟩ => rfl | ⟨2, _⟩ => rfl | ⟨3, _⟩ => rfl)
  have e1 : idx_main_v6 (idx_main_v8 i) = ix2 (i 3) (i 4) :=
    funext fun a => Fin.ext (by match a with | ⟨0, _⟩ => rfl | ⟨1, _⟩ => rfl)
  rw [val_main_v9_apply, val_main_v7_apply, val_main_v5_apply, val_main_v8_apply, val_main_v6_apply, e0, e1]
  rfl

end Cert.ReferenceIdeal.RefValue

end
-- ==== Proof.lean ====
/-
  The kernel against its reference: the outer product of a batch of feature vectors with a normalised table.

  Both programs first form u(d, e) = beta(d, e)² / Σ_e beta(d, e)² by the same six host operations, so u is one
  shared term here and is never opened.  The reference then multiplies x(b, h, w, d) by u(d, e) directly.  The kernel
  instead merges the leading axes of x into rows, spreads u over the block-diagonal 32 × 256 matrix
  W(k, 8·d + e) = δ(k, d) · u(k, e), multiplies 8192 rows at a time on the matrix unit into a zero accumulator, and
  splits rows and columns back.  On the extended reals the product's entry is Σ_k x(·, k) · (δ(k, d) · u(k, e)); the
  terms with k ≠ d are x · (0 · u) = 0 whatever x and u are, so the sum is x(·, d) · u(d, e): the two results are equal
  entry by entry with no appeal to finiteness.  The idealized kernel is the kernel's own text read at exact values, with
  no operation rewritten, so the idealization claim is trivial; the two kernel frames are the generated ones, and the
  reference's frame is its generated run with the result dropped.
-/
import proofs.«110005_j3040836845752_2_alg».proof.Defs
import proofs.«110005_j3040836845752_2_alg».proof.Proof.Gen.Kernel
import proofs.«110005_j3040836845752_2_alg».proof.Proof.Gen.Kernel.Skeleton
import proofs.«110005_j3040836845752_2_alg».proof.Proof.Gen.Kernel.Launch
import proofs.«110005_j3040836845752_2_alg».proof.Proof.Gen.Kernel.Points
import proofs.«110005_j3040836845752_2_alg».proof.Proof.Gen.Kernel.Frame
import proofs.«110005_j3040836845752_2_alg».proof.Proof.Gen.KernelIdeal
import proofs.«110005_j3040836845752_2_alg».proof.Proof.Gen.KernelIdeal.Skeleton
import proofs.«110005_j3040836845752_2_alg».proof.Proof.Gen.KernelIdeal.Launch
import proofs.«110005_j3040836845752_2_alg».proof.Proof.Gen.KernelIdeal.Points
import proofs.«110005_j3040836845752_2_alg».proof.Proof.Gen.KernelIdeal.Frame
import proofs.«110005_j3040836845752_2_alg».proof.Proof.Gen.ReferenceIdeal
import proofs.«110005_j3040836845752_2_alg».proof.Proof.Gen.Pre_finite_inputs
import proofs.«110005_j3040836845752_2_alg».proof.Proof.Gen.ReferenceIdeal.Run
import proofs.«110005_j3040836845752_2_alg».proof.Proof.Gen.ReferenceIdeal.Read
import Idealize.ShloMosaic.Adequacy
import Idealize.ShloMosaic.Init
import proofs.«110005_j3040836845752_2_alg».proof.Proof.KernelRun
import proofs.«110005_j3040836845752_2_alg».proof.Proof.RefOuter

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The normalised table is the same term in the two programs. -/
theorem table_eq (β : Cert.KernelIdeal.S32x8.Idx → EReal) :
    Cert.ReferenceIdeal.Read.val_main_v4 (F := Ideal) β = Cert.KernelIdeal.Hand.table β := rfl

/-- From memories agreeing on the arguments both programs end at x(b, h, w, d) · u(d, e), u the normalised table of
    beta. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_outer, (hagree c).1, (hagree c).2, table_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
